-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x33554432 : Shape := ⟨2, ![1, 33554432]⟩
abbrev S_ : Shape := ⟨0, ![]⟩

class Facts : Prop where
  bcast_S_S1x33554432 : S_.BroadcastsInDim S1x33554432 (![] : Fin 0 → Fin S1x33554432.rank)
  reducesTo_S1x33554432_S_d0_1 : S1x33554432.ReducesTo [0, 1] S_
  h_S_ : 0 < S_.numel

variable [Facts]

def fn {F : FTy → Type} [FloatOps F] (main_arg0 : FVec F S1x33554432 .f32) : IVec S_ 1 :=
  let main_v0 : FVec F S1x33554432 .f32 := Host.absf main_arg0
  let main_cst : FVec F S_ .f32 := constant S_ .f32 0x7F800000#32
  let main_v1 : FVec F S1x33554432 .f32 := broadcastInDim S1x33554432 ![] bcast_S_S1x33554432 main_cst
  let main_v2 : IVec S1x33554432 1 := cmpf .olt main_v0 main_v1
  let main_c : IVec S_ 1 := constantI S_ 1 1#1
  let main_v3 : IVec S_ 1 := (fun x v => Host.reduce IntOp.andi x v reducesTo_S1x33554432_S_d0_1 h_S_) main_v2 main_c
  main_v3
-- ==== Kernel.lean ====
abbrev S1x33554432 : Shape := ⟨2, ![1, 33554432]⟩
abbrev S32768x1024 : Shape := ⟨2, ![32768, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 4
  | .smem => 0
  | _ => 0

abbrev bufTy : (tb : Table) → Fin (tcTables nBuf tb) → BufTy
  | .hbm, ⟨0, _⟩ => ⟨S1x33554432, .f32⟩
  | .hbm, ⟨1, _⟩ => ⟨S32768x1024, .f32⟩
  | .hbm, ⟨2, _⟩ => ⟨S32768x1024, .f32⟩
  | .hbm, ⟨3, _⟩ => ⟨S1x33554432, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | _, _ => ⟨S1x33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1x33554432_S32768x1024 : S1x33554432.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S32768x1024_S1x33554432 : S32768x1024.ShapeCasts S1x33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x33554432 : Shape := ⟨2, ![1, 33554432]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩

abbrev nBuf : Space → Nat
  | .hbm => 28
  | .vmem => 0
  | .smem => 0
  | _ => 0

abbrev bufTy : (tb : Table) → Fin (tcTables nBuf tb) → BufTy
  | .hbm, ⟨0, _⟩ => ⟨S1x33554432, .f32⟩
  | .hbm, ⟨1, _⟩ => ⟨S32768x1024, .f32⟩
  | .hbm, ⟨2, _⟩ => ⟨S_, .f32⟩
  | .hbm, ⟨3, _⟩ => ⟨S32768, .f32⟩
  | .hbm, ⟨4, _⟩ => ⟨S32768x1, .f32⟩
  | .hbm, ⟨5, _⟩ => ⟨S_, .f32⟩
  | .hbm, ⟨6, _⟩ => ⟨S32768x1, .f32⟩
  | .hbm, ⟨7, _⟩ => ⟨S32768x1, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x33554432, .f32⟩
  | _, _ => ⟨S1x33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  shapeCasts_S1x33554432_S32768x1024 : S1x33554432.ShapeCasts S32768x1024
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  shapeCasts_S32768x1024_S1x33554432 : S32768x1024.ShapeCasts S1x33554432

variable [Facts₀]

class Facts : Prop extends Facts₀ where

variable [Facts]
-- ==== Proof.BlockLayout.lean ====
/-
  A 1024 × 1024 block read one element at a time: the sum along a row, the row sums kept as a 1024 × 1 column,
  and that column repeated across the 1024 lanes. Entry (p, q) of the repeated column is the value at row p,
  whatever q; entry (p, 0) of the column is entry p of the vector of row sums; and entry p of the row sums is
  the sum over the lanes k of the block at (p, k).
-/
import Idealize.ShloMosaic.Lib.Pipeline.Value
import Idealize.ShloMosaic.Lib.ValueIdx
import Idealize.ShloMosaic.PureOps.Ideal.Laws

noncomputable section

open scoped BigOperators

namespace Cert.RowNorm

open Idealize.ShloMosaic Idealize.ShloMosaic.ValueIdx

/-- A lane sum of a 1024 × 1024 block, read at row `p`: the sum over the lanes of the block's row. -/
theorem rowSum_apply (src : FVec Ideal (⟨2, ![1024, 1024]⟩ : Shape) .f32)
    (h : (⟨2, ![1024, 1024]⟩ : Shape).Reduces [1] (⟨1, ![1024]⟩ : Shape))
    (hφ : FKind.Formats .f32) (hacc : (0x00000000#32 : BitVec 32) = 0x00000000#32) (p : Fin 1024) :
    multiReduction .add [1] (⟨1, ![1024]⟩ : Shape) src 0x00000000#32 h hφ hacc (ix1 p)
      = ∑ k : Fin 1024, src (ix2 p k) := by
  refine (Ideal.multiReduction_add_single src 0x00000000#32 h hφ hacc (ix1 p)).trans ?_
  refine Finset.sum_congr rfl fun k _ => ?_
  exact congrArg src (funext fun a => Fin.ext (by match a with | ⟨0, _⟩ => rfl | ⟨1, _⟩ => rfl))

/-- A length-1024 vector kept as a 1024 × 1 column reads, at (p, u), the vector at p. -/
theorem column_apply {α : Type} (v : (⟨1, ![1024]⟩ : Shape).Idx → α)
    (h : (⟨1, ![1024]⟩ : Shape).ShapeCasts (⟨2, ![1024, 1]⟩ : Shape)) (p : Fin 1024) (u : Fin 1) :
    shapeCast (⟨2, ![1024, 1]⟩ : Shape) v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A 1024 × 1 column repeated across 1024 lanes reads, at (p, q), the column at (p, 0). -/
theorem acrossLanes_apply {α : Type} (w : (⟨2, ![1024, 1]⟩ : Shape).Idx → α)
    (h : (⟨2, ![1024, 1]⟩ : Shape).Broadcasts (⟨2, ![1024, 1024]⟩ : Shape)) (p q : Fin 1024) :
    broadcastTo (⟨2, ![1024, 1024]⟩ : Shape) w h (ix2 p q) = w (ix2 p (0 : Fin 1)) := by
  refine broadcastTo_apply w h (ix2 p q) (ix2 p (0 : Fin 1)) fun ax => ?_
  match ax with
  | ⟨0, _⟩ =>
    show p.val = if (1024 : Nat) = 1 then 0 else p.val
    rw [if_neg (by decide)]
  | ⟨1, _⟩ =>
    show 0 = if (1 : Nat) = 1 then 0 else q.val
    rw [if_pos rfl]

end Cert.RowNorm

end
-- ==== Proof.Consts.lean ====
/-
  The float literals the two programs spell, as the extended reals their bit patterns denote: zero, the
  reciprocal 2⁻¹⁰ the kernel multiplies a row's sums by, the 1024 the reference divides them by, the
  reference's exponent factor -1/2, and the variance offset both programs add — the single-precision
  neighbour of 10⁻⁵, which is the dyadic 10995116 / 2⁴⁰ and in particular positive.
-/
import Idealize.ShloMosaic.PureOps.Ideal

noncomputable section

namespace Cert.RowNorm.Consts

open Idealize.ShloMosaic

/-- The all-zero word denotes 0. -/
theorem ofBits_zero : Ideal.ofBits .f32 0x00000000#32 = 0 := by
  simp [Ideal.ofBits, Ideal.ieee]

/-- The kernel's factor is exactly 1/1024. -/
theorem ofBits_inv1024 : Ideal.ofBits .f32 0x3A800000#32 = ((1 / 1024 : ℝ) : EReal) := by
  simp [Ideal.ofBits, Ideal.ieee, -EReal.coe_mul]; norm_num

/-- The reference's divisor is exactly 1024. -/
theorem ofBits_1024 : Ideal.ofBits .f32 0x44800000#32 = ((1024 : ℝ) : EReal) := by
  simp [Ideal.ofBits, Ideal.ieee, -EReal.coe_mul]; norm_num

/-- The reference's factor on the logarithm is exactly -1/2. -/
theorem ofBits_neg_half : Ideal.ofBits .f32 0xBF000000#32 = ((-(1 / 2) : ℝ) : EReal) := by
  simp [Ideal.ofBits, Ideal.ieee, -EReal.coe_mul]; norm_num

/-- The offset added to the variance, a real number. -/
def eps : ℝ := 10995116 / 2 ^ 40

theorem eps_pos : 0 < eps := by unfold eps; positivity

/-- Both programs' offset word denotes `eps`. -/
theorem ofBits_eps : Ideal.ofBits .f32 0x3727C5AC#32 = ((eps : ℝ) : EReal) := by
  unfold eps
  simp [Ideal.ofBits, Ideal.ieee, -EReal.coe_mul]; norm_num

end Cert.RowNorm.Consts

end
-- ==== Proof.RowLaw.lean ====
/-
  One row of 1024 numbers, normalised two ways.

  The kernel takes the row's sum and its sum of squares, scales both by 1/1024 to get the mean μ and the mean
  of squares, forms the variance as (mean of squares) − μ², clips it at zero, adds the offset ε and multiplies
  the centred entry by the reciprocal square root. The reference divides the sum by 1024 to get μ, sums the
  squared deviations from μ, divides by 1024, adds ε, and multiplies the centred entry by exp(−½·log(·)).

  On real data these agree: the mean of squares minus the squared mean IS the mean squared deviation (so it is
  nonnegative and the clip does nothing), and for r > 0 the reciprocal square root is exp(−½·log r). The identity
  between the two variances moves a factor across a sum and cancels, which is false at the infinities — this is
  where finiteness of the data is used.
-/
import proofs.«178681_j17222818857298_2_alg».proof.Proof.Consts

noncomputable section

namespace Cert.RowNorm

open Idealize.ShloMosaic

/-! ## Real-number facts -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean squared deviation of 1024 reals is the mean of their squares minus their squared mean. -/
theorem mean_sq_dev (b : Fin 1024 → ℝ) :
    (∑ k, (b k - (∑ i, b i) * (1 / 1024)) * (b k - (∑ i, b i) * (1 / 1024))) * (1 / 1024)
      = (∑ k, b k * b k) * (1 / 1024) - ((∑ i, b i) * (1 / 1024)) * ((∑ i, b i) * (1 / 1024)) := by
  have h1 : ∀ k, (b k - (∑ i, b i) * (1 / 1024)) * (b k - (∑ i, b i) * (1 / 1024))
      = b k * b k - 2 * ((∑ i, b i) * (1 / 1024)) * b k + ((∑ i, b i) * (1 / 1024)) * ((∑ i, b i) * (1 / 1024)) :=
    fun k => by ring
  simp only [h1]
  rw [Finset.sum_add_distrib, Finset.sum_sub_distrib, ← Finset.mul_sum, Finset.sum_const, Finset.card_univ,
    Fintype.card_fin, nsmul_eq_mul]
  push_cast
  ring

/-- A mean squared deviation is nonnegative. -/
theorem mean_sq_dev_nonneg (b : Fin 1024 → ℝ) (μ : ℝ) :
    0 ≤ (∑ k, (b k - μ) * (b k - μ)) * (1 / 1024) :=
  mul_nonneg (Finset.sum_nonneg fun k _ => mul_self_nonneg _) (by norm_num)

/-- For a positive real the reciprocal square root is exp(−½·log r). -/
theorem inv_sqrt_eq_exp (r : ℝ) (hr : 0 < r) : (Real.sqrt r)⁻¹ = Real.exp (-(1 / 2) * Real.log r) := by
  rw [Real.sqrt_eq_rpow, Real.rpow_def_of_pos hr, ← Real.exp_neg]
  congr 1; ring

/-! ## The two normalisations of a row -/

/-- Entry `q` of the row as the kernel normalises it. -/
def kernelRow (a : Fin 1024 → EReal) (q : Fin 1024) : EReal :=
  (a q - (∑ k, a k) * Ideal.ofBits .f32 0x3A800000#32)
    * Ideal.rsqrt (max ((∑ k, a k * a k) * Ideal.ofBits .f32 0x3A800000#32
          - ((∑ k, a k) * Ideal.ofBits .f32 0x3A800000#32) * ((∑ k, a k) * Ideal.ofBits .f32 0x3A800000#32))
        (Ideal.ofBits .f32 0x00000000#32) + Ideal.ofBits .f32 0x3727C5AC#32)

/-- The reference's row mean. -/
def refMean (a : Fin 1024 → EReal) : EReal :=
  Ideal.div (Ideal.ofBits .f32 0x00000000#32 + ∑ k, a k) (Ideal.ofBits .f32 0x44800000#32)

/-- Entry `q` of the row as the reference normalises it. -/
def refRow (a : Fin 1024 → EReal) (q : Fin 1024) : EReal :=
  (a q - refMean a)
    * Ideal.exp (Ideal.ofBits .f32 0xBF000000#32
        * Ideal.log (Ideal.div (Ideal.ofBits .f32 0x00000000#32 + ∑ k, (a k - refMean a) * (a k - refMean a))
            (Ideal.ofBits .f32 0x44800000#32) + Ideal.ofBits .f32 0x3727C5AC#32))

/-- On a row of reals the two normalisations agree. -/
theorem rows_agree (b : Fin 1024 → ℝ) (q : Fin 1024) :
    kernelRow (fun k => (b k : EReal)) q = refRow (fun k => (b k : EReal)) q := by
  unfold kernelRow refRow refMean
  simp only [Consts.ofBits_zero, Consts.ofBits_inv1024, Consts.ofBits_1024, Consts.ofBits_neg_half,
    Consts.ofBits_eps, zero_add, Ideal.div_coe (by norm_num : (1024 : ℝ) ≠ 0)]
  -- the three sums, as coerced real sums
  have hS : (∑ x, (b x : EReal)) = ((∑ x, b x : ℝ) : EReal) := (coe_sum _ _).symm
  have hQ : (∑ x, (b x : EReal) * (b x : EReal)) = ((∑ x, b x * b x : ℝ) : EReal) := by
    rw [coe_sum]; exact Finset.sum_congr rfl fun k _ => (EReal.coe_mul _ _).symm
  rw [hS, hQ]
  have hD : (∑ x, ((b x : EReal) - ((∑ i, b i : ℝ) : EReal) * ((1 / 1024 : ℝ) : EReal))
        * ((b x : EReal) - ((∑ i, b i : ℝ) : EReal) * ((1 / 1024 : ℝ) : EReal)))
      = ((∑ x, (b x - (∑ i, b i) * (1 / 1024)) * (b x - (∑ i, b i) * (1 / 1024)) : ℝ) : EReal) := by
    refine Eq.trans ?_ (coe_sum Finset.univ
      fun x => (b x - (∑ i, b i) * (1 / 1024)) * (b x - (∑ i, b i) * (1 / 1024))).symm
    exact Finset.sum_congr rfl fun k _ => by rw [EReal.coe_mul, EReal.coe_sub, EReal.coe_mul]
  rw [hD]
  congr 1
  -- the common variance v, in the reference's spelling and in the kernel's
  obtain ⟨v, hvD⟩ : ∃ v : ℝ,
      v = (∑ k, (b k - (∑ i, b i) * (1 / 1024)) * (b k - (∑ i, b i) * (1 / 1024))) * (1 / 1024) := ⟨_, rfl⟩
  have hvK : v = (∑ k, b k * b k) * (1 / 1024) - ((∑ i, b i) * (1 / 1024)) * ((∑ i, b i) * (1 / 1024)) :=
    hvD.trans (mean_sq_dev b)
  have hnn : 0 ≤ v := hvD ▸ mean_sq_dev_nonneg b _
  have hpos : 0 < v + Consts.eps := add_pos_of_nonneg_of_pos hnn Consts.eps_pos
  have hK : ((∑ x, b x * b x : ℝ) : EReal) * ((1 / 1024 : ℝ) : EReal)
        - ((∑ x, b x : ℝ) : EReal) * ((1 / 1024 : ℝ) : EReal) * (((∑ x, b x : ℝ) : EReal) * ((1 / 1024 : ℝ) : EReal))
      = (v : EReal) := by
    rw [hvK]; simp only [EReal.coe_sub, EReal.coe_mul]
  have hR : ((∑ x, (b x - (∑ i, b i) * (1 / 1024)) * (b x - (∑ i, b i) * (1 / 1024)) : ℝ) : EReal)
        * ((1 / 1024 : ℝ) : EReal) = (v : EReal) := by
    rw [hvD, EReal.coe_mul]
  rw [hK, hR]
  -- the clip at zero does nothing; then both sides are evaluated at the positive real v + ε
  rw [max_eq_left (by exact_mod_cast hnn : (0 : EReal) ≤ (v : EReal)), ← EReal.coe_add]
  rw [Ideal.rsqrt_coe, if_neg (not_lt.mpr hpos.le), if_neg hpos.ne', Ideal.log_coe, if_neg (not_le.mpr hpos),
    ← EReal.coe_mul, Ideal.exp_coe, inv_sqrt_eq_exp _ hpos]

end Cert.RowNorm

end
-- ==== Proof.Payload.lean ====
/-
  What the kernel body stores, one element at a time. The body loads a 1024 × 1024 block, and the value it stores
  at (p, q) is entry q of row p of the block normalised the kernel's way: the two lane sums are the sums over the
  row, each is kept as a column and repeated across the lanes, and every other operation is pointwise — so the
  stored element depends on row p of the loaded block and on nothing else.
-/
import proofs.«178681_j17222818857298_2_alg».proof.Proof.Gen.KernelIdeal.Skeleton
import proofs.«178681_j17222818857298_2_alg».proof.Proof.BlockLayout
import proofs.«178681_j17222818857298_2_alg».proof.Proof.RowLaw

noncomputable section

namespace Cert.RowNorm

open Idealize.ShloMosaic Idealize.ShloMosaic.ValueIdx Cert.KernelIdeal Cert.KernelIdeal.Gen

/-- The reciprocal square root of a vector, read at an index. -/
theorem rsqrt_apply {s : Shape} {φ : FTy} (a : FVec Ideal s φ) (i : s.Idx) : rsqrt a i = Ideal.rsqrt (a i) := rfl

/-- The stored value at (p, q) is entry q of row p of the loaded block, normalised the kernel's way. -/
theorem payload_apply (x0 : Vec Ideal S1024x1024 .f32) (p q : Fin 1024) :
    k0_pay1 (F := Ideal) x0 (ix2 p q) = kernelRow (fun k => x0 (ix2 p k)) q := by
  unfold k0_pay1 kernelRow
  dsimp only
  simp only [shapeCast_self, mulf_apply, subf_apply, addf_apply, maximumf_apply, broadcast_apply, rsqrt_apply,
    acrossLanes_apply, column_apply, Ideal.ofBits_def]
  rw [rowSum_apply x0 _ _ _ p, rowSum_apply (mulf x0 x0) _ _ _ p]
  simp only [mulf_apply]

end Cert.RowNorm

end
-- ==== Proof.Spec.lean ====
/-
  The specification: a 32768 × 1024 array normalised row by row. Entry (r, q) of the result depends on row r
  only — it is entry q of that row normalised — and the two ways of normalising a row (the kernel's, through the
  mean of squares; the reference's, through the squared deviations) give one array whenever every entry of the
  input is a real number.
-/
import proofs.«178681_j17222818857298_2_alg».proof.Proof.RowLaw
import Idealize.ShloMosaic.Lib.ValueIdx

noncomputable section

namespace Cert.RowNorm

open Idealize.ShloMosaic Idealize.ShloMosaic.ValueIdx

/-- Row `r` of a 32768 × 1024 array, as a function of the lane. -/
def rowOf (X : (⟨2, ![32768, 1024]⟩ : Shape).Idx → EReal) (r : Fin 32768) : Fin 1024 → EReal :=
  fun k => X (ix2 r k)

/-- Every row normalised the kernel's way. -/
def kernelRows (X : (⟨2, ![32768, 1024]⟩ : Shape).Idx → EReal) : (⟨2, ![32768, 1024]⟩ : Shape).Idx → EReal :=
  fun i => kernelRow (rowOf X ⟨(i 0).val, (i 0).isLt⟩) ⟨(i 1).val, (i 1).isLt⟩

/-- Every row normalised the reference's way. -/
def refRows (X : (⟨2, ![32768, 1024]⟩ : Shape).Idx → EReal) : (⟨2, ![32768, 1024]⟩ : Shape).Idx → EReal :=
  fun i => refRow (rowOf X ⟨(i 0).val, (i 0).isLt⟩) ⟨(i 1).val, (i 1).isLt⟩

theorem kernelRows_apply (X : (⟨2, ![32768, 1024]⟩ : Shape).Idx → EReal) (r : Fin 32768) (q : Fin 1024) :
    kernelRows X (ix2 r q) = kernelRow (rowOf X r) q := rfl

theorem refRows_apply (X : (⟨2, ![32768, 1024]⟩ : Shape).Idx → EReal) (r : Fin 32768) (q : Fin 1024) :
    refRows X (ix2 r q) = refRow (rowOf X r) q := rfl

/-- On an array of reals the two normalisations are one array. -/
theorem kernelRows_eq_refRows (X : (⟨2, ![32768, 1024]⟩ : Shape).Idx → EReal)
    (hX : ∀ i, ∃ x : ℝ, X i = (x : EReal)) : kernelRows X = refRows X := by
  funext i
  obtain ⟨r, q, rfl⟩ : ∃ (r : Fin 32768) (q : Fin 1024), i = ix2 r q := ⟨i 0, i 1, eq_ix2 i⟩
  rw [kernelRows_apply, refRows_apply]
  choose b hb using fun k : Fin 1024 => hX (ix2 r k)
  have hrow : rowOf X r = fun k => (b k : EReal) := funext hb
  rw [hrow]
  exact rows_agree b q

end Cert.RowNorm

end
-- ==== Proof.KernelValue.lean ====
/-
  The kernel's result as one function of its input. The grid has 32 points; point t reads rows 1024·t … 1024·t + 1023
  of the reshaped input and writes the same rows of the output, each row normalised by itself. A row lies wholly
  inside one block, so what point t writes is the block of ONE whole-array function — every row of the reshaped
  input normalised the kernel's way — and the 32 blocks tile the output. The program reshapes its input to
  32768 × 1024 before the grid runs and reshapes the grid's output back afterwards.
-/
import proofs.«178681_j17222818857298_2_alg».proof.Proof.Gen.KernelIdeal.Frame
import proofs.«178681_j17222818857298_2_alg».proof.Proof.Payload
import proofs.«178681_j17222818857298_2_alg».proof.Proof.Spec
import Idealize.ShloMosaic.Lib.Pipeline.Value
import Idealize.ShloMosaic.Lib.StableHlo.Run

set_option maxRecDepth 16384

noncomputable section

namespace Cert.RowNorm.KernelSide

open Idealize.ShloMosaic Idealize.ShloMosaic.TcCoe Idealize.ShloMosaic.ValueIdx Idealize.SL.Sem
open Cert.KernelIdeal Cert.KernelIdeal.Gen Cert.RowNorm
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- At point t both windows sit at block row t, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Element (p, q) of point t's input block sits at row 1024·t + p of the array. -/
theorem in_block_at (t : Fin cfg0.N) (p q : Fin 1024) (r : Fin 32768) (hr : r.val = t.val * 1024 + p.val) :
    ((cfg0.win 0).blk t).view.emb (ix2 p q) = ix2 r q := by
  obtain ⟨e0, e1, e2, e3⟩ := block_index t
  funext a; apply Fin.ext
  match a with
  | ⟨0, _⟩ => show win0_0.index t (0 : Fin 2) * 1024 + 1 * p.val = r.val; omega
  | ⟨1, _⟩ => show win0_0.index t (1 : Fin 2) * 1024 + 1 * q.val = q.val; omega

/-- Element (p, q) of point t's output block sits at row 1024·t + p of the array. -/
theorem out_block_at (t : Fin cfg0.N) (p q : Fin 1024) (r : Fin 32768) (hr : r.val = t.val * 1024 + p.val) :
    ((cfg0.win 1).blk t).view.emb (ix2 p q) = ix2 r q := by
  obtain ⟨e0, e1, e2, e3⟩ := block_index t
  funext a; apply Fin.ext
  match a with
  | ⟨0, _⟩ => show win0_1.index t (0 : Fin 2) * 1024 + 1 * p.val = r.val; omega
  | ⟨1, _⟩ => show win0_1.index t (1 : Fin 2) * 1024 + 1 * q.val = q.val; omega

/-- What point t writes back is block t of the reshaped input with every row normalised. -/
theorem flushed_eq (c : Dev nD) (t : Fin cfg0.N) :
    (dats m 0 c).flushed 1 t = ((cfg0.win 1).blk t).view.read (Elt Ideal) (kernelRows (V m c main_v0)) := by
  show (cfg0.win 1).cut (grid0.coords t) ((dats m 0 c).after 1 t) = _
  rw [after0_1]
  unfold out0_1
  rw [View.canon_unit_zero zero_offsets]
  simp only [View.ld_unit_zero (S := S1024x1024) zero_offsets]
  refine funext fun (j : S1024x1024.Idx) => ?_
  show k0_pay1 (F := Ideal) (iblk m c 0 t) j = kernelRows (V m c main_v0) (((cfg0.win 1).blk t).view.emb j)
  obtain ⟨p, q, rfl⟩ : ∃ (p q : Fin 1024), j = ix2 p q := ⟨j 0, j 1, eq_ix2 j⟩
  have hN : grid0.N = 32 := N_0
  have ht : t.val < 32 := hN ▸ t.isLt
  obtain ⟨r, hr⟩ : ∃ r : Fin 32768, r.val = t.val * 1024 + p.val := ⟨⟨t.val * 1024 + p.val, by omega⟩, rfl⟩
  rw [out_block_at t p q r hr, kernelRows_apply]
  refine (payload_apply (iblk m c 0 t) p q).trans ?_
  refine congrArg (fun a => kernelRow a q) (funext fun k => ?_)
  show V m c main_v0 (((cfg0.win 0).blk t).view.emb (ix2 p k)) = V m c main_v0 (ix2 r k)
  rw [in_block_at t p k r hr]

/-- An index of the output array is in point t's block iff each coordinate is in the block's range. -/
theorem mem_block (t : Fin cfg0.N) (i : S32768x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v1).slice (win0_1.rect t)).set ↔ _
  rw [View.set_slice_whole, Rect.mem_set_unit]
  exact Iff.rfl

/-- Row r of the output is written by point r / 1024: the blocks tile the array. -/
theorem blocks_cover (i : S32768x1024.Idx) :
    ∃ t : Fin cfg0.N, (cfg0.win 1).flush t = true ∧ i ∈ ((cfg0.win 1).blk t).view.set := by
  have hi0 : (i 0).val < 32768 := (i 0).isLt
  have hi1 : (i 1).val < 1024 := (i 1).isLt
  have hN : grid0.N = 32 := N_0
  obtain ⟨t, htv⟩ : ∃ t : Fin cfg0.N, t.val = (i 0).val / 1024 :=
    ⟨⟨(i 0).val / 1024, by show (i 0).val / 1024 < grid0.N; omega⟩, rfl⟩
  obtain ⟨e0, e1, e2, e3⟩ := block_index t
  refine ⟨t, flush0_1 t, ?_⟩
  rw [mem_block]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 1024 ≤ (i 1).val ∧ (i 1).val < win0_1.index t (1 : Fin 2) * 1024 + 1024
    omega

/-- After the grid the output array holds the reshaped input with every row normalised. -/
theorem grid_output (c : Dev nD) : (dats m 0 c).arrAt 1 cfg0.N = kernelRows (V m c main_v0) :=
  (dats m 0 c).arrAt_eq_of_cover 1 (kernelRows (V m c main_v0)) (fun t _ => flushed_eq m c t) blocks_cover

/-- The array the grid reads is the program's input reshaped to 32768 × 1024. -/
theorem grid_input (c : Dev nD) : (V m c main_v0 : S32768x1024.Idx → EReal)
    = shapeCast S32768x1024 (m ((c : Thread nD τ).loc main_arg0)) shapeCasts_S1x33554432_S32768x1024 := by
  show StableHlo.after hostOps0 (fun b => m (c, b)) (Proc.devRef .tc main_v0) = _
  after_results
  rfl

/-- After the grid the program reshapes the grid's output back to one row: its result buffer holds that reshape. -/
theorem result_after (c : Dev nD) :
    Pipeline.afterTail₀ cfgs (dats m) 0 (V0 m) [hostOps1] c main_v2
      = shapeCast S1x33554432 ((dats m 0 c).arrAt 1 cfg0.N) shapeCasts_S32768x1024_S1x33554432 := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.tc.devRef main_v1) = (dats m 0 c).arrAt 1 cfg0.N :=
    Pipeline.withArrays_arr spec0 launch0.win.arr_inj c (V0 m c) _ 1
  rw [e]
  rfl

/-- The program's run: every weakly fair execution terminates with the result at the input reshaped to
    32768 × 1024, every row normalised the kernel's way, reshaped back; and with the input unchanged. -/
theorem run : θ_run defs (onTc (τ := τ) (main (F := Ideal))) ⟨m, fun _ => 0, ρ⟩ fun r => ∀ c : Dev nD,
      r.2.mem ((c.tc : Thread nD τ).loc main_v2)
        = shapeCast S1x33554432 (kernelRows (shapeCast S32768x1024 (m ((c.tc : Thread nD τ).loc main_arg0))
            shapeCasts_S1x33554432_S32768x1024)) shapeCasts_S32768x1024_S1x33554432
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans
          ((result_after m c).trans (by rw [grid_output, grid_input])),
        ((h c).2 main_arg0 (Pipeline.mem_restRefs_of main_arg0 (by decide) (by decide))).trans
          (W_main_arg0 m (dats m) c)⟩)
    (run_main m ρ)

end Cert.RowNorm.KernelSide

end
-- ==== Proof.RefValue.lean ====
/-
  The reference, one element at a time. Its last array before the closing reshape is the input, reshaped to
  32768 rows of 1024, normalised row by row the reference's way: at (r, q) the row mean is the row's sum divided
  by 1024, kept as a column and repeated across the lanes; the variance is the sum of the squared deviations of
  row r divided by 1024; and the factor exp(−½·log(variance + ε)) is again a column repeated across the lanes.
  Every stage reads at (r, q) only row r of the reshaped input.
-/
import proofs.«178681_j17222818857298_2_alg».proof.Proof.Gen.ReferenceIdeal.Read
import proofs.«178681_j17222818857298_2_alg».proof.Proof.Spec

noncomputable section

namespace Cert.RowNorm.RefSide

open Idealize.ShloMosaic Idealize.ShloMosaic.ValueIdx Cert.ReferenceIdeal Cert.ReferenceIdeal.Read Cert.RowNorm

/-- The reference's array before its closing reshape is its reshaped input with every row normalised. -/
theorem rows_normalised (x0 : (⟨S1x33554432, .f32⟩ : BufTy).Contents (Elt Ideal)) :
    val_main_v19 (F := Ideal) x0 = refRows (val_main_v0 (F := Ideal) x0) := by
  funext i
  obtain ⟨r, q, rfl⟩ : ∃ (r : Fin 32768) (q : Fin 1024), i = ix2 r q := ⟨i 0, i 1, eq_ix2 i⟩
  -- a column repeated across the lanes is read at lane 0; the column of row sums at row r; the sums over row r
  have c5 : ∀ k : Fin 1024, idx_main_v5 (ix2 r k) = ix2 r (0 : Fin 1) := fun k =>
    funext fun a => Fin.ext (by match a with | ⟨0, _⟩ => rfl | ⟨1, _⟩ => rfl)
  have c18 : ∀ k : Fin 1024, idx_main_v18 (ix2 r k) = ix2 r (0 : Fin 1) := fun k =>
    funext fun a => Fin.ext (by match a with | ⟨0, _⟩ => rfl | ⟨1, _⟩ => rfl)
  have c2 : idx_main_v2 (ix2 r (0 : Fin 1)) = ix1 r :=
    funext fun a => Fin.ext (by match a with | ⟨0, _⟩ => rfl)
  have c9 : idx_main_v9 (ix2 r (0 : Fin 1)) = ix1 r :=
    funext fun a => Fin.ext (by match a with | ⟨0, _⟩ => rfl)
  have c1 : ∀ k : Fin 1024, idx_main_v1 (ix1 r) k = ix2 r k := fun k =>
    funext fun a => Fin.ext (by match a with | ⟨0, _⟩ => rfl | ⟨1, _⟩ => rfl)
  have c8 : ∀ k : Fin 1024, idx_main_v8 (ix1 r) k = ix2 r k := fun k =>
    funext fun a => Fin.ext (by match a with | ⟨0, _⟩ => rfl | ⟨1, _⟩ => rfl)
  rw [refRows_apply]
  unfold refRow refMean rowOf
  simp only [val_main_v19_apply, val_main_v18_apply, val_main_v17_apply, val_main_v16_apply, val_main_v15_apply,
    val_main_cst_4_apply, val_main_v14_apply, val_main_v13_apply, val_main_v12_apply, val_main_cst_3_apply,
    val_main_v11_apply, val_main_v10_apply, val_main_cst_2_apply, val_main_v9_apply, val_main_v8_apply,
    val_main_cst_1_apply, val_main_v7_apply, val_main_v6_apply, val_main_v5_apply, val_main_v4_apply,
    val_main_v3_apply, val_main_cst_0_apply, val_main_v2_apply, val_main_v1_apply, val_main_cst_apply,
    c5, c18, c2, c9, c1, c8,
    Ideal.ofBits_def, Ideal.mulf_def, Ideal.subf_def, Ideal.addf_def, Ideal.hostDivf_def,
    Ideal.hostUnary_exp_def, Ideal.hostUnary_log_def]

end Cert.RowNorm.RefSide

end
-- ==== Proof.Finite.lean ====
/-
  What the precondition says of the data. It is one test, "the absolute value of every entry is below +∞, for all
  entries at once", and it came out true; so each entry x has max(x, −x) < +∞, which rules out both infinities:
  every entry of the input is a real number.
-/
import proofs.«178681_j17222818857298_2_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.RowNorm

open Idealize.ShloMosaic Idealize.ShloMosaic.ValueIdx

/-- The word the entries are compared against denotes +∞. -/
theorem ofBits_inf : Ideal.ofBits .f32 0x7F800000#32 = (⊤ : EReal) := by
  simp [Ideal.ofBits, Ideal.ieee]

/-- A strict comparison that answered 1 holds. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton Cert.Pre_finite_inputs.S_.Idx := ⟨fun a b => funext fun d => d.elim0⟩

/-- Under the precondition every entry of the input is a real number. -/
theorem entries_real [Cert.Pre_finite_inputs.Facts] (x : FVec Ideal Cert.Pre_finite_inputs.S1x33554432 .f32)
    (h : Cert.Pre_finite_inputs.fn (F := Ideal) x = fun _ => 1#1) (i : Cert.Pre_finite_inputs.S1x33554432.Idx) :
    ∃ r : ℝ, x i = (r : EReal) := by
  have h0 := congrFun h ix0
  dsimp only [Cert.Pre_finite_inputs.fn] at h0
  have hi := Host.reduce_andi_all _ _ _ _ _ h0 i
  rw [cmpf_apply, broadcastInDim_apply _ _ _ i ix0 (fun a => a.elim0), constant_apply] at hi
  have hlt : max (x i) (-(x i)) < (⊤ : EReal) := ofBits_inf ▸ lt_of_cmp_olt _ _ hi
  exact real_of_abs_lt_top _ hlt

end Cert.RowNorm

end
-- ==== Proof.lean ====
/-
  Row normalisation of 32768 rows of 1024 numbers: the kernel against its reference.

  Both programs reshape the flat input to 32768 × 1024, replace each row x by (x − μ)·s, and reshape back. For the
  kernel μ = (Σx)/1024 through the exact factor 2⁻¹⁰, the variance is (Σx²)/1024 − μ² clipped at zero, and
  s = (variance + ε)^(−1/2) as a reciprocal square root; for the reference μ = (Σx)/1024 by a division, the variance
  is Σ(x − μ)²/1024, and s = exp(−½·log(variance + ε)). The offset ε is the same number in both. On real data the two
  variances are equal and nonnegative and the two forms of s agree, so the results are equal element by element; the
  precondition — every input entry finite — is what makes the data real, and is used exactly there.

  The kernel's grid has 32 points, each normalising 1024 whole rows, so its output is one whole-array function of
  its input (Proof/KernelValue.lean over Proof/Payload.lean); the reference's array is read stage by stage
  (Proof/RefValue.lean); the law for one row is Proof/RowLaw.lean. The idealised kernel is the kernel's own text, so
  there is nothing to preserve beyond it; the three frames are the programs' runs with the results dropped.
-/
import proofs.«178681_j17222818857298_2_alg».proof.Defs
import proofs.«178681_j17222818857298_2_alg».proof.Proof.Gen.Kernel
import proofs.«178681_j17222818857298_2_alg».proof.Proof.Gen.Kernel.Skeleton
import proofs.«178681_j17222818857298_2_alg».proof.Proof.Gen.Kernel.Launch
import proofs.«178681_j17222818857298_2_alg».proof.Proof.Gen.Kernel.Points
import proofs.«178681_j17222818857298_2_alg».proof.Proof.Gen.Kernel.Frame
import proofs.«178681_j17222818857298_2_alg».proof.Proof.Gen.KernelIdeal
import proofs.«178681_j17222818857298_2_alg».proof.Proof.Gen.KernelIdeal.Skeleton
import proofs.«178681_j17222818857298_2_alg».proof.Proof.Gen.KernelIdeal.Launch
import proofs.«178681_j17222818857298_2_alg».proof.Proof.Gen.KernelIdeal.Points
import proofs.«178681_j17222818857298_2_alg».proof.Proof.Gen.KernelIdeal.Frame
import proofs.«178681_j17222818857298_2_alg».proof.Proof.Gen.ReferenceIdeal
import proofs.«178681_j17222818857298_2_alg».proof.Proof.Gen.ReferenceIdeal.Run
import proofs.«178681_j17222818857298_2_alg».proof.Proof.Gen.ReferenceIdeal.Read
import proofs.«178681_j17222818857298_2_alg».proof.Proof.Gen.Pre_finite_inputs
import proofs.«178681_j17222818857298_2_alg».proof.Proof.KernelValue
import proofs.«178681_j17222818857298_2_alg».proof.Proof.RefValue
import proofs.«178681_j17222818857298_2_alg».proof.Proof.Finite
import Idealize.ShloMosaic.Adequacy
import Idealize.ShloMosaic.Init

noncomputable section

namespace Cert.Proof

open Idealize.ShloMosaic Idealize.ShloMosaic.TcCoe Idealize.SL.Sem Cert.RowNorm

/-- On an input whose entries are all finite, the reference's result is the kernel's: the same reshape of the same
    row-normalised array, the two normalisations being one on real data. -/
theorem results_agree [Cert.Pre_finite_inputs.Facts] (x : (⟨Cert.KernelIdeal.S1x33554432, .f32⟩ : BufTy).Contents (Elt Ideal))
    (hfin : Cert.Pre_finite_inputs.fn (F := Ideal) x = fun _ => 1#1) :
    Cert.ReferenceIdeal.Read.val_main_v20 (F := Ideal) x
      = shapeCast Cert.KernelIdeal.S1x33554432
          (kernelRows (shapeCast Cert.KernelIdeal.S32768x1024 x Cert.KernelIdeal.Facts₀.shapeCasts_S1x33554432_S32768x1024))
          Cert.KernelIdeal.Facts₀.shapeCasts_S32768x1024_S1x33554432 := by
  have hX : ∀ i, ∃ r : ℝ, shapeCast Cert.KernelIdeal.S32768x1024 x
      Cert.KernelIdeal.Facts₀.shapeCasts_S1x33554432_S32768x1024 i = (r : EReal) := fun i => by
    unfold shapeCast
    exact entries_real x hfin _
  rw [kernelRows_eq_refRows _ hX]
  unfold Cert.ReferenceIdeal.Read.val_main_v20
  rw [RefSide.rows_normalised]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealised kernel is the kernel's own text read over the extended reals: no rewrite was applied. -/
theorem preserves : Cert.preserves_Kernel_KernelIdeal := trivial

/-- From memories agreeing on the input, both programs end, with one result. -/
theorem algebraic : Cert.algebraic_KernelIdeal_ReferenceIdeal := by
  intro m ρ m' ρ' hpre hagree
  refine ⟨_, KernelSide.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v20_eq _)).trans ?_
  rw [hagree c]
  exact results_agree _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
